-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2000x32 : Shape := ⟨2, ![2000, 32]⟩
abbrev S1000x32 : Shape := ⟨2, ![1000, 32]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S2000x32 : S_.BroadcastsInDim S2000x32 (![] : Fin 0 → Fin S2000x32.rank)
  reducesTo_S2000x32_S_d0_1 : S2000x32.ReducesTo [0, 1] S_
  bcast_S_S1000x32 : S_.BroadcastsInDim S1000x32 (![] : Fin 0 → Fin S1000x32.rank)
  reducesTo_S1000x32_S_d0_1 : S1000x32.ReducesTo [0, 1] S_

variable [Facts]

def fn {F : FTy → Type} [FloatOps F] (main_arg0 : FVec F S50000x32 .f32) (main_arg1 : FVec F S2000x32 .f32) (main_arg2 : FVec F S1000x32 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S2000x32 .f32 := Host.absf main_arg1
  let main_cst_0 : FVec F S_ .f32 := constant S_ .f32 0x7F800000#32
  let main_v5 : FVec F S2000x32 .f32 := broadcastInDim S2000x32 ![] bcast_S_S2000x32 main_cst_0
  let main_v6 : IVec S2000x32 1 := cmpf .olt main_v4 main_v5
  let main_c_1 : IVec S_ 1 := constantI S_ 1 1#1
  let main_v7 : IVec S_ 1 := (fun x v => Host.reduce IntOp.andi x v reducesTo_S2000x32_S_d0_1 h_S_) main_v6 main_c_1
  let main_v8 : IVec S_ 1 := andi main_v3 main_v7
  let main_v9 : FVec F S1000x32 .f32 := Host.absf main_arg2
  let main_cst_2 : FVec F S_ .f32 := constant S_ .f32 0x7F800000#32
  let main_v10 : FVec F S1000x32 .f32 := broadcastInDim S1000x32 ![] bcast_S_S1000x32 main_cst_2
  let main_v11 : IVec S1000x32 1 := cmpf .olt main_v9 main_v10
  let main_c_3 : IVec S_ 1 := constantI S_ 1 1#1
  let main_v12 : IVec S_ 1 := (fun x v => Host.reduce IntOp.andi x v reducesTo_S1000x32_S_d0_1 h_S_) main_v11 main_c_3
  let main_v13 : IVec S_ 1 := andi main_v8 main_v12
  main_v13
-- ==== Kernel.lean ====
abbrev S50000x32 : Shape := ⟨2, ![50000, 32]⟩
abbrev S2000x32 : Shape := ⟨2, ![2000, 32]⟩
abbrev S1000x32 : Shape := ⟨2, ![1000, 32]⟩
abbrev S_ : Shape := ⟨0, ![]⟩
abbrev S32 : Shape := ⟨1, ![32]⟩
abbrev S1x32 : Shape := ⟨2, ![1, 32]⟩
abbrev S2x32 : Shape := ⟨2, ![2, 32]⟩
abbrev S32x2000 : Shape := ⟨2, ![32, 2000]⟩
abbrev S32x1000 : Shape := ⟨2, ![32, 1000]⟩
abbrev S50000x2000 : Shape := ⟨2, ![50000, 2000]⟩
abbrev S50000x1000 : Shape := ⟨2, ![50000, 1000]⟩
abbrev S1000x2000 : Shape := ⟨2, ![1000, 2000]⟩
abbrev S1000x1000 : Shape := ⟨2, ![1000, 1000]⟩

abbrev nBuf : Space → Nat
  | .hbm => 16
  | .vmem => 9
  | .smem => 0
  | _ => 0

abbrev bufTy : (tb : Table) → Fin (tcTables nBuf tb) → BufTy
  | .hbm, ⟨0, _⟩ => ⟨S50000x32, .f32⟩
  | .hbm, ⟨1, _⟩ => ⟨S2000x32, .f32⟩
  | .hbm, ⟨2, _⟩ => ⟨S1000x32, .f32⟩
  | .hbm, ⟨3, _⟩ => ⟨S_, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S1x32, .f32⟩
  | .hbm, ⟨8, _⟩ => ⟨S1x32, .f32⟩
  | .hbm, ⟨9, _⟩ => ⟨S2x32, .f32⟩
  | .hbm, ⟨10, _⟩ => ⟨S32x2000, .f32⟩
  | .hbm, ⟨11, _⟩ => ⟨S32x2000, .bf16⟩
  | .hbm, ⟨12, _⟩ => ⟨S32x1000, .f32⟩
  | .hbm, ⟨13, _⟩ => ⟨S32x1000, .bf16⟩
  | .hbm, ⟨14, _⟩ => ⟨S50000x2000, .f32⟩
  | .hbm, ⟨15, _⟩ => ⟨S50000x1000, .f32⟩
  | .local _ .vmem, ⟨0, _⟩ => ⟨S2x32, .f32⟩
  | .local _ .vmem, ⟨1, _⟩ => ⟨S1000x32, .f32⟩
  | .local _ .vmem, ⟨2, _⟩ => ⟨S1000x32, .f32⟩
  | .local _ .vmem, ⟨3, _⟩ => ⟨S32x2000, .bf16⟩
  | .local _ .vmem, ⟨4, _⟩ => ⟨S32x1000, .bf16⟩
  | .local _ .vmem, ⟨5, _⟩ => ⟨S1000x2000, .f32⟩
  | .local _ .vmem, ⟨6, _⟩ => ⟨S1000x2000, .f32⟩
  | .local _ .vmem, ⟨7, _⟩ => ⟨S1000x1000, .f32⟩
  | .local _ .vmem, ⟨8, _⟩ => ⟨S1000x1000, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x2000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S2000x32_S32_d0 : S2000x32.ReducesTo [0] S32
  h_S_ : 0 < S_.numel
  reducesTo_S1000x32_S32_d0 : S1000x32.ReducesTo [0] S32
  bcast_S32_S1x32_1 : S32.BroadcastsInDim S1x32 (![1] : Fin 1 → Fin S1x32.rank)
  concatenates_S1x32_S1x32_S2x32_d0 : Shape.Concatenates [S1x32, S1x32] S2x32 0
  transposes_S2000x32_S32x2000_1_0 : S2000x32.Transposes [1, 0] S32x2000
  bitsLt_bf16_f32 : FTy.bits .bf16 < FTy.bits .f32
  transposes_S1000x32_S32x1000_1_0 : S1000x32.Transposes [1, 0] S32x1000
  inb_S1000x32_S1000x32_0_0 : ∀ a, (![0, 0] : Fin 2 → Nat) a + S1000x32.size a ≤ S1000x32.size a
  h_S1000x32 : 0 < S1000x32.numel
  inb_S2x32_S1x32_0_0 : ∀ a, (![0, 0] : Fin 2 → Nat) a + S1x32.size a ≤ S2x32.size a
  h_S1x32 : 0 < S1x32.numel
  shapeCasts_S1x32_S1x32 : S1x32.ShapeCasts S1x32
  inb_S2x32_S1x32_1_0 : ∀ a, (![1, 0] : Fin 2 → Nat) a + S1x32.size a ≤ S2x32.size a
  broadcasts_S1x32_S1000x32 : S1x32.Broadcasts S1000x32
  inb_S32x2000_S32x2000_0_0 : ∀ a, (![0, 0] : Fin 2 → Nat) a + S32x2000.size a ≤ S32x2000.size a
  h_S32x2000 : 0 < S32x2000.numel
  shapeCasts_S32x2000_S32x2000 : S32x2000.ShapeCasts S32x2000
  inb_S1000x2000_S1000x2000_0_0 : ∀ a, (![0, 0] : Fin 2 → Nat) a + S1000x2000.size a ≤ S1000x2000.size a
  h_S1000x2000 : 0 < S1000x2000.numel
  inb_S32x1000_S32x1000_0_0 : ∀ a, (![0, 0] : Fin 2 → Nat) a + S32x1000.size a ≤ S32x1000.size a
  h_S32x1000 : 0 < S32x1000.numel
  shapeCasts_S32x1000_S32x1000 : S32x1000.ShapeCasts S32x1000
  inb_S1000x1000_S1000x1000_0_0 : ∀ a, (![0, 0] : Fin 2 → Nat) a + S1000x1000.size a ≤ S1000x1000.size a
  h_S1000x1000 : 0 < S1000x1000.numel
  dot_S1000x32_S32x2000_S1000x2000_1_0_0_1_n_n_wf : DotDims.WF S1000x32 S32x2000 S1000x2000 [1] [0] [0] [1] [] []
  dot_S1000x32_S32x1000_S1000x1000_1_0_0_1_n_n_wf : DotDims.WF S1000x32 S32x1000 S1000x1000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x32.size a ≤ S2x32.size a
  hwx0_0 : ∀ i : grid0.Coords, EltTy.bits .f32 = 32 ∨ (Rect.block (s := S2x32) S2x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32.size a ≤ S50000x32.size a
  hwx0_1 : ∀ i : grid0.Coords, EltTy.bits .f32 = 32 ∨ (Rect.block (s := S50000x32) S1000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2000.size a ≤ S32x2000.size a
  hwx0_2 : ∀ i : grid0.Coords, EltTy.bits .bf16 = 32 ∨ (Rect.block (s := S32x2000) S32x2000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1000.size a ≤ S32x1000.size a
  hwx0_3 : ∀ i : grid0.Coords, EltTy.bits .bf16 = 32 ∨ (Rect.block (s := S32x1000) S32x1000.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x2000.size a ≤ S50000x2000.size a
  hwx0_4 : ∀ i : grid0.Coords, EltTy.bits .f32 = 32 ∨ (Rect.block (s := S50000x2000) S1000x2000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x1000.size a ≤ S50000x1000.size a
  hwx0_5 : ∀ i : grid0.Coords, EltTy.bits .f32 = 32 ∨ (Rect.block (s := S50000x1000) S1000x1000.size (cc0_transform_5 i) (hinb0_5 i)).WholeWords (EltTy.packing .f32)

variable [Facts₀]

def dot_S1000x32_S32x2000_S1000x2000_1_0_0_1_n_n : DotDims S1000x32 S32x2000 S1000x2000 where
  lhsContracting := [1]
  rhsContracting := [0]
  lhsNonContracting := [0]
  rhsNonContracting := [1]
  lhsBatch := []
  rhsBatch := []
  wf := dot_S1000x32_S32x2000_S1000x2000_1_0_0_1_n_n_wf
def dot_S1000x32_S32x1000_S1000x1000_1_0_0_1_n_n : DotDims S1000x32 S32x1000 S1000x1000 where
  lhsContracting := [1]
  rhsContracting := [0]
  lhsNonContracting := [0]
  rhsNonContracting := [1]
  lhsBatch := []
  rhsBatch := []
  wf := dot_S1000x32_S32x1000_S1000x1000_1_0_0_1_n_n_wf

abbrev win0_0 : Pipeline.Window sig grid0 :=
  Pipeline.Window.ofSpec (Memref.whole main_v4) S2x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S32x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1000x2000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1000x1000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x32 : Shape := ⟨2, ![50000, 32]⟩
abbrev S2000x32 : Shape := ⟨2, ![2000, 32]⟩
abbrev S1000x32 : Shape := ⟨2, ![1000, 32]⟩
abbrev S_ : Shape := ⟨0, ![]⟩
abbrev S32 : Shape := ⟨1, ![32]⟩
abbrev S1x32 : Shape := ⟨2, ![1, 32]⟩
abbrev S32x2000 : Shape := ⟨2, ![32, 2000]⟩
abbrev S50000x2000 : Shape := ⟨2, ![50000, 2000]⟩
abbrev S32x1000 : Shape := ⟨2, ![32, 1000]⟩
abbrev S50000x1000 : Shape := ⟨2, ![50000, 1000]⟩

abbrev nBuf : Space → Nat
  | .hbm => 17
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2000x32, .f32⟩
  | .hbm, ⟨2, _⟩ => ⟨S1000x32, .f32⟩
  | .hbm, ⟨3, _⟩ => ⟨S_, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S1x32, .f32⟩
  | .hbm, ⟨8, _⟩ => ⟨S50000x32, .f32⟩
  | .hbm, ⟨9, _⟩ => ⟨S50000x32, .f32⟩
  | .hbm, ⟨10, _⟩ => ⟨S32x2000, .f32⟩
  | .hbm, ⟨11, _⟩ => ⟨S50000x2000, .f32⟩
  | .hbm, ⟨12, _⟩ => ⟨S1x32, .f32⟩
  | .hbm, ⟨13, _⟩ => ⟨S50000x32, .f32⟩
  | .hbm, ⟨14, _⟩ => ⟨S50000x32, .f32⟩
  | .hbm, ⟨15, _⟩ => ⟨S32x1000, .f32⟩
  | .hbm, ⟨16, _⟩ => ⟨S50000x1000, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S2000x32_S32_d0 : S2000x32.ReducesTo [0] S32
  h_S_ : 0 < S_.numel
  reducesTo_S1000x32_S32_d0 : S1000x32.ReducesTo [0] S32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  transposes_S2000x32_S32x2000_1_0 : S2000x32.Transposes [1, 0] S32x2000
  transposes_S1000x32_S32x1000_1_0 : S1000x32.Transposes [1, 0] S32x1000
  dot_S50000x32_S32x2000_S50000x2000_1_0_0_1_n_n_wf : DotDims.WF S50000x32 S32x2000 S50000x2000 [1] [0] [0] [1] [] []
  dot_S50000x32_S32x1000_S50000x1000_1_0_0_1_n_n_wf : DotDims.WF S50000x32 S32x1000 S50000x1000 [1] [0] [0] [1] [] []

variable [Facts₀]

def dot_S50000x32_S32x2000_S50000x2000_1_0_0_1_n_n : DotDims S50000x32 S32x2000 S50000x2000 where
  lhsContracting := [1]
  rhsContracting := [0]
  lhsNonContracting := [0]
  rhsNonContracting := [1]
  lhsBatch := []
  rhsBatch := []
  wf := dot_S50000x32_S32x2000_S50000x2000_1_0_0_1_n_n_wf
def dot_S50000x32_S32x1000_S50000x1000_1_0_0_1_n_n : DotDims S50000x32 S32x1000 S50000x1000 where
  lhsContracting := [1]
  rhsContracting := [0]
  lhsNonContracting := [0]
  rhsNonContracting := [1]
  lhsBatch := []
  rhsBatch := []
  wf := dot_S50000x32_S32x1000_S50000x1000_1_0_0_1_n_n_wf

class Facts : Prop extends Facts₀ where

variable [Facts]
-- ==== Proof.ScaledProduct.lean ====
/-
  The one function both programs compute, twice. For a matrix `X` of `P` rows and 32 columns, a vector `s` of 32
  column scales and a matrix `U` of `N` rows and 32 columns, entry `(r, n)` of `(X · diag s) · Uᵀ` is
  `∑ k, (X r k · s k) · U n k`: row `r` of `X` scaled column by column, then contracted with row `n` of `U`.
  The kernel and the reference both form the scaled row first and contract it second, over the same 32 terms in the
  same grouping, so comparing them needs no law of the extended reals (no distributivity, no cancelling, hence no
  finiteness): it is enough that each side reads this sum at every index.
-/
import Idealize.ShloMosaic.PureOps.Ideal
import Idealize.ShloMosaic.PureOps.Contract
import Idealize.ShloMosaic.Lib.ValueIdx

noncomputable section

namespace Cert.ScaledProduct

open Idealize.ShloMosaic Idealize.ShloMosaic.ValueIdx

/-- The 32 column sums of a matrix of `N` rows, as the host's add-reduction over the row axis, from zero, computes
    them. It stays this one operation throughout: both programs apply it to the same argument arrays, and neither
    side's reading ever needs what it sums to. -/
def colSums {N : Nat} (h : (⟨2, ![N, 32]⟩ : Shape).ReducesTo [0] ⟨1, ![32]⟩) (h0 : 0 < (⟨0, ![]⟩ : Shape).numel)
    (U : (⟨2, ![N, 32]⟩ : Shape).Idx → EReal) : (⟨1, ![32]⟩ : Shape).Idx → EReal :=
  Host.reduceAdd (F := Ideal) (φ := .f32) U (constant (F := Ideal) ⟨0, ![]⟩ .f32 0x00000000#32) h h0

/-- Entry `(r, n)` of `(X · diag s) · Uᵀ` on the extended reals: `∑ k, (X r k · s k) · U n k`. -/
def scaledProd {P N : Nat} (X : (⟨2, ![P, 32]⟩ : Shape).Idx → EReal) (s : (⟨1, ![32]⟩ : Shape).Idx → EReal)
    (U : (⟨2, ![N, 32]⟩ : Shape).Idx → EReal) : (⟨2, ![P, N]⟩ : Shape).Idx → EReal :=
  fun i => ∑ k : Fin 32, (X (ix2 (i 0) k) * s (ix1 k)) * U (ix2 (i 1) k)

/-- The same with the index given by its row and its column. -/
theorem scaledProd_ix2 {P N : Nat} (X : (⟨2, ![P, 32]⟩ : Shape).Idx → EReal) (s : (⟨1, ![32]⟩ : Shape).Idx → EReal)
    (U : (⟨2, ![N, 32]⟩ : Shape).Idx → EReal) (r : Fin P) (n : Fin N) :
    scaledProd X s U (ix2 r n) = ∑ k : Fin 32, (X (ix2 r k) * s (ix1 k)) * U (ix2 n k) := rfl

end Cert.ScaledProduct

end
-- ==== Proof.PayloadAtIndex.lean ====
/-
  The body's two stored values read at an index. At one grid point the body holds a block `x` of 1000 rows of the
  first argument, the two rows of column scales, and the two transposed factor matrices whole. What it stores into
  the first output's block is the matrix product of `x` scaled column by column by the SECOND row of scales with the
  first transposed factor, accumulated from zero; into the second output's block, `x` scaled by the FIRST row of
  scales times the second transposed factor. At the extended reals a change of float format is the identity and
  a product accumulated from zero is the plain sum over the contracted axis, so entry `(p, q)` of each stored value is
  `∑ k, (x p k · s k) · W k q` with `s` the row of scales used and `W` the transposed factor.
-/
import proofs.«164277_j19713899888662_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The dimension numbers of the first product: [1000, 32] × [32, 2000], the one contracted axis of extent 32. -/
abbrev D1 := dot_S1000x32_S32x2000_S1000x2000_1_0_0_1_n_n

/-- The left operand is read in the output's row, -/
theorem lhs1_row (i : S1000x2000.Idx) (κ : D1.contr.Idx) : (D1.lhsIdx i κ 0).val = (i 0).val := by
  unfold DotDims.lhsIdx
  rw [dif_neg (show ¬(0 : Fin S1000x32.rank) ∈ D1.lhsBatch by decide), dif_pos (show (0 : Fin S1000x32.rank) ∈ D1.lhsNonContracting by decide)]
  rfl

/-- and the right operand in the output's column. -/
theorem rhs1_col (i : S1000x2000.Idx) (κ : D1.contr.Idx) : (D1.rhsIdx i κ 1).val = (i 1).val := by
  unfold DotDims.rhsIdx
  rw [dif_neg (show ¬(1 : Fin S32x2000.rank) ∈ D1.rhsBatch by decide), dif_pos (show (1 : Fin S32x2000.rank) ∈ D1.rhsNonContracting by decide)]
  rfl

/-- The first stored value at `(p, q)`: the row `p` of the block scaled by the given row of scales, contracted with
    column `q` of the transposed factor. -/
theorem pay1_apply (v0 : FVec Ideal S1000x32 .f32) (v3 : FVec Ideal S1x32 .f32) (v11 : FVec Ideal S32x2000 .bf16)
    (p : Fin 1000) (q : Fin 2000) :
    k0_pay1 (F := Ideal) v0 v3 v11 (ix2 p q)
      = ∑ k : Fin 32, (v0 (ix2 p k) * v3 (ix2 (0 : Fin 1) k)) * v11 (ix2 k q) := by
  unfold k0_pay1
  rw [shapeCast_self, shapeCast_self]
  simp only [matmul]
  rw [Ideal.matmul_constant_zero_apply, ← Equiv.sum_comp (contrEquiv1 D1 32 rfl rfl).symm]
  refine Finset.sum_congr rfl fun k _ => ?_
  have hk := contrEquiv1_symm_val D1 32 rfl rfl k
  have el : D1.lhsIdx (ix2 p q) ((contrEquiv1 D1 32 rfl rfl).symm k) = ix2 p k := funext fun a => Fin.ext (by
    match a with
    | ⟨0, _⟩ => exact lhs1_row _ _
    | ⟨1, _⟩ => exact (D1.lhsIdx_val_of_single rfl _ _).trans hk)
  have er : D1.rhsIdx (ix2 p q) ((contrEquiv1 D1 32 rfl rfl).symm k) = ix2 k q := funext fun a => Fin.ext (by
    match a with
    | ⟨0, _⟩ => exact (D1.rhsIdx_val_of_single rfl _ _).trans hk
    | ⟨1, _⟩ => exact rhs1_col _ _)
  rw [el, er, truncf_apply, mulf_apply, broadcastTo_1b_ab_apply]

/-- The dimension numbers of the second product: [1000, 32] × [32, 1000], the one contracted axis of extent 32. -/
abbrev D2 := dot_S1000x32_S32x1000_S1000x1000_1_0_0_1_n_n

/-- The left operand is read in the output's row, -/
theorem lhs2_row (i : S1000x1000.Idx) (κ : D2.contr.Idx) : (D2.lhsIdx i κ 0).val = (i 0).val := by
  unfold DotDims.lhsIdx
  rw [dif_neg (show ¬(0 : Fin S1000x32.rank) ∈ D2.lhsBatch by decide), dif_pos (show (0 : Fin S1000x32.rank) ∈ D2.lhsNonContracting by decide)]
  rfl

/-- and the right operand in the output's column. -/
theorem rhs2_col (i : S1000x1000.Idx) (κ : D2.contr.Idx) : (D2.rhsIdx i κ 1).val = (i 1).val := by
  unfold DotDims.rhsIdx
  rw [dif_neg (show ¬(1 : Fin S32x1000.rank) ∈ D2.rhsBatch by decide), dif_pos (show (1 : Fin S32x1000.rank) ∈ D2.rhsNonContracting by decide)]
  rfl

/-- The second stored value at `(p, q)`: the row `p` of the block scaled by the given row of scales, contracted with
    column `q` of the other transposed factor. -/
theorem pay2_apply (v0 : FVec Ideal S1000x32 .f32) (v1 : FVec Ideal S1x32 .f32) (v15 : FVec Ideal S32x1000 .bf16)
    (p : Fin 1000) (q : Fin 1000) :
    k0_pay2 (F := Ideal) v0 v1 v15 (ix2 p q)
      = ∑ k : Fin 32, (v0 (ix2 p k) * v1 (ix2 (0 : Fin 1) k)) * v15 (ix2 k q) := by
  unfold k0_pay2
  rw [shapeCast_self, shapeCast_self]
  simp only [matmul]
  rw [Ideal.matmul_constant_zero_apply, ← Equiv.sum_comp (contrEquiv1 D2 32 rfl rfl).symm]
  refine Finset.sum_congr rfl fun k _ => ?_
  have hk := contrEquiv1_symm_val D2 32 rfl rfl k
  have el : D2.lhsIdx (ix2 p q) ((contrEquiv1 D2 32 rfl rfl).symm k) = ix2 p k := funext fun a => Fin.ext (by
    match a with
    | ⟨0, _⟩ => exact lhs2_row _ _
    | ⟨1, _⟩ => exact (D2.lhsIdx_val_of_single rfl _ _).trans hk)
  have er : D2.rhsIdx (ix2 p q) ((contrEquiv1 D2 32 rfl rfl).symm k) = ix2 k q := funext fun a => Fin.ext (by
    match a with
    | ⟨0, _⟩ => exact (D2.rhsIdx_val_of_single rfl _ _).trans hk
    | ⟨1, _⟩ => exact rhs2_col _ _)
  rw [el, er, truncf_apply, mulf_apply, broadcastTo_1b_ab_apply]

end Cert.KernelIdeal.Payload

end
-- ==== Proof.RegionEntry.lean ====
/-
  What the region finds in the arrays its input windows stage. Before the one pallas_call, @main computes three
  small arrays from the arguments and leaves the first argument alone:
    * the scales, two rows of 32: row 0 the column sums of the second argument, row 1 the column sums of the third
      (each a column-sum vector given a leading unit axis, the two stacked);
    * the second argument transposed, [32, 2000], then narrowed to bf16 — at the extended reals the narrowing is
      the identity, so entry `(k, n)` is the argument's entry `(n, k)`;
    * the third argument transposed, [32, 1000], likewise.
  Each is read here at an index given by its coordinates.
-/
import proofs.«164277_j19713899888662_2_alg».proof.Proof.Gen.KernelIdeal.Frame
import proofs.«164277_j19713899888662_2_alg».proof.Proof.ScaledProduct
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.ScaledProduct

variable (m : (ℓ : Loc nD τ sig) → Buf (Elt Ideal) ℓ)

/-- The column sums of the second argument (2000 rows), -/
abbrev sums1 (c : Dev nD) : S32.Idx → EReal := colSums reducesTo_S2000x32_S32_d0 h_S_ (m ((c : Thread nD τ).loc main_arg1))
/-- and of the third (1000 rows). -/
abbrev sums2 (c : Dev nD) : S32.Idx → EReal := colSums reducesTo_S1000x32_S32_d0 h_S_ (m ((c : Thread nD τ).loc main_arg2))

/-- The scales array: the two column-sum vectors, each with a leading unit axis, stacked. -/
theorem scales_eq (c : Dev nD) : (V m c main_v4 : S2x32.Idx → EReal)
    = concatenate S2x32 0 [⟨S1x32, broadcastInDim S1x32 ![1] bcast_S32_S1x32_1 (sums1 m c)⟩,
        ⟨S1x32, broadcastInDim S1x32 ![1] bcast_S32_S1x32_1 (sums2 m c)⟩] concatenates_S1x32_S1x32_S2x32_d0 := by
  dsimp only [Gen.V, Gen.hostOps0]; after_results; rfl

/-- A column-sum vector with a leading unit axis, read in its one row. -/
theorem unitRow_apply (s : S32.Idx → EReal) (k : Fin 32) :
    broadcastInDim S1x32 ![1] bcast_S32_S1x32_1 s (ix2 (0 : Fin 1) k) = s (ix1 k) :=
  broadcastInDim_apply _ bcast_S32_S1x32_1 s _ (ix1 k) (fun a => match a with
    | ⟨0, _⟩ => by show k.val = if (32 : Nat) = 1 then 0 else k.val; rw [if_neg (by decide)])

/-- Row 0 of the scales is the second argument's column sums, -/
theorem scales_row0 (c : Dev nD) (k : Fin 32) :
    (V m c main_v4 : S2x32.Idx → EReal) (ix2 (0 : Fin 2) k) = sums1 m c (ix1 k) := by
  rw [scales_eq]
  refine (concatenate_pair_apply_left (0 : Fin S2x32.rank) _ _ concatenates_S1x32_S1x32_S2x32_d0 (ix2 (0 : Fin 2) k) rfl (ix2 (0 : Fin 1) k)
    (fun b => match b with | ⟨0, _⟩ => rfl | ⟨1, _⟩ => rfl)).trans ?_
  exact unitRow_apply _ k

/-- and row 1 the third argument's. -/
theorem scales_row1 (c : Dev nD) (k : Fin 32) :
    (V m c main_v4 : S2x32.Idx → EReal) (ix2 (1 : Fin 2) k) = sums2 m c (ix1 k) := by
  rw [scales_eq]
  refine (concatenate_pair_apply_right (0 : Fin S2x32.rank) _ _ concatenates_S1x32_S1x32_S2x32_d0 (ix2 (1 : Fin 2) k) rfl rfl (ix2 (0 : Fin 1) k)
    (fun b hb => match b, hb with | ⟨0, _⟩, hb => absurd rfl hb | ⟨1, _⟩, _ => rfl) rfl).trans ?_
  exact unitRow_apply _ k

/-- The first transposed factor: entry `(k, n)` is the second argument's entry `(n, k)`. -/
theorem factor1_apply (c : Dev nD) (k : Fin 32) (n : Fin 2000) :
    (V m c main_v6 : S32x2000.Idx → EReal) (ix2 k n) = (m ((c : Thread nD τ).loc main_arg1) : S2000x32.Idx → EReal) (ix2 n k) := by
  have e : (V m c main_v6 : S32x2000.Idx → EReal)
      = truncf (F := Ideal) .bf16 (transpose S32x2000 [1, 0] (m ((c : Thread nD τ).loc main_arg1) : FVec Ideal S2000x32 .f32) transposes_S2000x32_S32x2000_1_0) bitsLt_bf16_f32 := by
    dsimp only [Gen.V, Gen.hostOps0]; after_results
  rw [e, truncf_apply, transpose_ix2_apply]

/-- The second transposed factor: entry `(k, n)` is the third argument's entry `(n, k)`. -/
theorem factor2_apply (c : Dev nD) (k : Fin 32) (n : Fin 1000) :
    (V m c main_v8 : S32x1000.Idx → EReal) (ix2 k n) = (m ((c : Thread nD τ).loc main_arg2) : S1000x32.Idx → EReal) (ix2 n k) := by
  have e : (V m c main_v8 : S32x1000.Idx → EReal)
      = truncf (F := Ideal) .bf16 (transpose S32x1000 [1, 0] (m ((c : Thread nD τ).loc main_arg2) : FVec Ideal S1000x32 .f32) transposes_S1000x32_S32x1000_1_0) bitsLt_bf16_f32 := by
    dsimp only [Gen.V, Gen.hostOps0]; after_results
  rw [e, truncf_apply, transpose_ix2_apply]

end Cert.KernelIdeal.Entry

end
-- ==== Proof.BlocksToArrays.lean ====
/-
  From blocks to the two result arrays. The grid has 50 points; point `t` stages rows `1000 t … 1000 t + 999` of the
  first argument, the scales and the two transposed factors whole, and writes back rows `1000 t … 1000 t + 999` of
  each result. Entry `(p, q)` of what point `t` writes to the first result is
  `∑ k, (X (1000 t + p) k · s₂ k) · U₁ q k` — `X` the first argument, `s₂` the third argument's column sums (row 1 of
  the scales), `U₁` the second argument — which is entry `(1000 t + p, q)` of the scaled product; likewise for the
  second result with `s₁` (row 0 of the scales) and the third argument. Row `r` of a result lies in the block of
  point `r / 1000`, so the fifty blocks cover each array, and each array ends holding the scaled product whole.
-/
import proofs.«164277_j19713899888662_2_alg».proof.Proof.Gen.KernelIdeal.Value
import proofs.«164277_j19713899888662_2_alg».proof.Proof.PayloadAtIndex
import proofs.«164277_j19713899888662_2_alg».proof.Proof.RegionEntry
import proofs.«164277_j19713899888662_2_alg».proof.Proof.ScaledProduct
import Idealize.ShloMosaic.Lib.Pipeline.Value
import Idealize.ShloMosaic.Lib.ValueIdx

noncomputable section

namespace Cert.KernelIdeal.Whole

open Cert.KernelIdeal Cert.KernelIdeal.Gen Cert.KernelIdeal.Value Cert.KernelIdeal.Entry Cert.KernelIdeal.Payload
open Idealize.ShloMosaic Idealize.ShloMosaic.TcCoe Idealize.SL.Sem Idealize.ShloMosaic.ValueIdx Cert.ScaledProduct
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The first result: the first argument scaled by the third argument's column sums, times the second transposed. -/
abbrev result0 (c : Dev nD) : S50000x2000.Idx → EReal :=
  scaledProd (m ((c : Thread nD τ).loc main_arg0)) (sums2 m c) (m ((c : Thread nD τ).loc main_arg1))
/-- The second result: the first argument scaled by the second argument's column sums, times the third transposed. -/
abbrev result1 (c : Dev nD) : S50000x1000.Idx → EReal :=
  scaledProd (m ((c : Thread nD τ).loc main_arg0)) (sums1 m c) (m ((c : Thread nD τ).loc main_arg2))

/-- The printed index maps, decided over the 50 grid points: the row-blocked windows (the first argument, the two
    results) are at block `(t, 0)`, the resident ones at block `(0, 0)`. -/
theorem blockIndices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := Nat.lt_of_lt_of_eq t.isLt N_0

/-! ## The input blocks at a point, read at coordinates -/

/-- Row `p` of point `t`'s block of the first argument is the argument's row `1000 t + p`. -/
theorem rows_apply (c : Dev nD) (t : Fin cfg0.N) (p : Fin 1000) (k : Fin 32) (r : Fin 50000) (hr : r.val = t.val * 1000 + p.val) :
    (iblk m c 1 t : S1000x32.Idx → EReal) (ix2 p k) = (m ((c : Thread nD τ).loc main_arg0) : S50000x32.Idx → EReal) (ix2 r k) := by
  obtain ⟨-, -, e0, e1, -⟩ := blockIndices t
  show V m c main_arg0 (((cfg0.win 1).blk t).view.emb (ix2 p k)) = _
  rw [V_main_arg0]
  refine congrArg _ (funext fun a => Fin.ext ?_)
  match a with
  | ⟨0, _⟩ => show win0_1.index t (0 : Fin 2) * 1000 + 1 * p.val = r.val; omega
  | ⟨1, _⟩ => show win0_1.index t (1 : Fin 2) * 32 + 1 * k.val = k.val; omega

/-- The scales' row 1, loaded by the body at any point, is the third argument's column sums; -/
theorem scaleRow1_apply (c : Dev nD) (t : Fin cfg0.N) (k : Fin 32) :
    View.ld (iblk m c 0 t : S2x32.Idx → EReal) r0_2 (ix2 (0 : Fin 1) k) = sums2 m c (ix1 k) := by
  obtain ⟨e0, e1, -⟩ := blockIndices t
  show V m c main_v4 (((cfg0.win 0).blk t).view.emb (r0_2.idx (ix2 (0 : Fin 1) k))) = _
  refine Eq.trans (congrArg _ (funext fun a => Fin.ext ?_)) (scales_row1 m c k)
  match a with
  | ⟨0, _⟩ => show win0_0.index t (0 : Fin 2) * 2 + 1 * (1 + 1 * 0) = 1; omega
  | ⟨1, _⟩ => show win0_0.index t (1 : Fin 2) * 32 + 1 * (0 + 1 * k.val) = k.val; omega

/-- its row 0 the second argument's. -/
theorem scaleRow0_apply (c : Dev nD) (t : Fin cfg0.N) (k : Fin 32) :
    View.ld (iblk m c 0 t : S2x32.Idx → EReal) r0_1 (ix2 (0 : Fin 1) k) = sums1 m c (ix1 k) := by
  obtain ⟨e0, e1, -⟩ := blockIndices t
  show V m c main_v4 (((cfg0.win 0).blk t).view.emb (r0_1.idx (ix2 (0 : Fin 1) k))) = _
  refine Eq.trans (congrArg _ (funext fun a => Fin.ext ?_)) (scales_row0 m c k)
  match a with
  | ⟨0, _⟩ => show win0_0.index t (0 : Fin 2) * 2 + 1 * (0 + 1 * 0) = 0; omega
  | ⟨1, _⟩ => show win0_0.index t (1 : Fin 2) * 32 + 1 * (0 + 1 * k.val) = k.val; omega

/-- The first transposed factor, staged whole at every point: entry `(k, q)` is the second argument's `(q, k)`. -/
theorem factor1_blk_apply (c : Dev nD) (t : Fin cfg0.N) (k : Fin 32) (q : Fin 2000) :
    (iblk m c 2 t : S32x2000.Idx → EReal) (ix2 k q) = (m ((c : Thread nD τ).loc main_arg1) : S2000x32.Idx → EReal) (ix2 q k) := by
  obtain ⟨-, -, -, -, e0, e1, -⟩ := blockIndices t
  show V m c main_v6 (((cfg0.win 2).blk t).view.emb (ix2 k q)) = _
  refine Eq.trans (congrArg _ (funext fun a => Fin.ext ?_)) (factor1_apply m c k q)
  match a with
  | ⟨0, _⟩ => show win0_2.index t (0 : Fin 2) * 32 + 1 * k.val = k.val; omega
  | ⟨1, _⟩ => show win0_2.index t (1 : Fin 2) * 2000 + 1 * q.val = q.val; omega

/-- The second transposed factor, staged whole at every point: entry `(k, q)` is the third argument's `(q, k)`. -/
theorem factor2_blk_apply (c : Dev nD) (t : Fin cfg0.N) (k : Fin 32) (q : Fin 1000) :
    (iblk m c 3 t : S32x1000.Idx → EReal) (ix2 k q) = (m ((c : Thread nD τ).loc main_arg2) : S1000x32.Idx → EReal) (ix2 q k) := by
  obtain ⟨-, -, -, -, -, -, e0, e1, -⟩ := blockIndices t
  show V m c main_v8 (((cfg0.win 3).blk t).view.emb (ix2 k q)) = _
  refine Eq.trans (congrArg _ (funext fun a => Fin.ext ?_)) (factor2_apply m c k q)
  match a with
  | ⟨0, _⟩ => show win0_3.index t (0 : Fin 2) * 32 + 1 * k.val = k.val; omega
  | ⟨1, _⟩ => show win0_3.index t (1 : Fin 2) * 1000 + 1 * q.val = q.val; omega

/-! ## The first result -/

/-- What point `t` writes back to the first result is block `t` of the scaled product. -/
theorem flushed4_eq (c : Dev nD) (t : Fin cfg0.N) :
    (dats m 0 c).flushed 4 t = ((cfg0.win 4).blk t).view.read (Elt Ideal) (result0 m c) := by
  rw [Value.flushed4]
  unfold out0_4
  rw [View.canon_unit_zero zeroOffsets]
  simp only [View.ld_unit_zero (S := S1000x32) zeroOffsets, View.ld_unit_zero (S := S32x2000) zeroOffsets]
  obtain ⟨-, -, -, -, -, -, -, -, e0, e1, -⟩ := blockIndices t
  have ht := point_lt t
  funext j
  obtain ⟨p, q, rfl⟩ : ∃ (p : Fin 1000) (q : Fin 2000), j = ix2 p q := ⟨j 0, j 1, eq_ix2 j⟩
  have hp := p.isLt
  have hr : t.val * 1000 + p.val < 50000 := by omega
  show k0_pay1 (iblk m c 1 t) (View.ld (iblk m c 0 t) r0_2) (iblk m c 2 t) (ix2 p q)
    = result0 m c (((cfg0.win 4).blk t).view.emb (ix2 p q))
  have ei : ((cfg0.win 4).blk t).view.emb (ix2 p q) = ix2 (⟨t.val * 1000 + p.val, hr⟩ : Fin 50000) q :=
    funext fun a => Fin.ext (by
      match a with
      | ⟨0, _⟩ => show win0_4.index t (0 : Fin 2) * 1000 + 1 * p.val = t.val * 1000 + p.val; omega
      | ⟨1, _⟩ => show win0_4.index t (1 : Fin 2) * 2000 + 1 * q.val = q.val; omega)
  rw [ei]
  refine (pay1_apply _ _ _ p q).trans ?_
  refine Eq.trans (Finset.sum_congr rfl fun k _ => ?_) (scaledProd_ix2 _ _ _ _ _).symm
  rw [rows_apply m c t p k ⟨_, hr⟩ rfl, scaleRow1_apply m c t k, factor1_blk_apply m c t k q]

/-- An index of the first result is in point `t`'s block iff each coordinate is in the block's range on its axis. -/
theorem mem_blk4 (t : Fin cfg0.N) (i : S50000x2000.Idx) :
    i ∈ ((cfg0.win 4).blk t).view.set ↔ ∀ a : Fin 2, win0_4.index t a * S1000x2000.size a ≤ (i a).val ∧ (i a).val < win0_4.index t a * S1000x2000.size a + S1000x2000.size a := by
  show i ∈ ((View.whole main_v9_0).slice (win0_4.rect t)).set ↔ _
  rw [View.set_slice_whole, Rect.mem_set_unit]
  exact Iff.rfl

/-- Row `r` of the first result is in the block of point `r / 1000`. -/
theorem cover4 (i : S50000x2000.Idx) : ∃ t : Fin cfg0.N, (cfg0.win 4).flush t = true ∧ i ∈ ((cfg0.win 4).blk t).view.set := by
  have hi0 : (i 0).val < 50000 := (i 0).isLt
  have hi1 : (i 1).val < 2000 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, -, -, -, -, e0, e1, -⟩ := blockIndices t
  refine ⟨t, flush0_4 t, ?_⟩
  rw [mem_blk4]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 2000 ≤ (i 1).val ∧ (i 1).val < win0_4.index t (1 : Fin 2) * 2000 + 2000; omega

/-- The first result array after the run is the scaled product, whole. -/
theorem final4 (c : Dev nD) : (dats m 0 c).arrAt 4 cfg0.N = result0 m c :=
  (dats m 0 c).arrAt_eq_of_cover 4 (result0 m c) (fun t _ => flushed4_eq m c t) cover4

/-! ## The second result -/

/-- What point `t` writes back to the second result is block `t` of the scaled product. -/
theorem flushed5_eq (c : Dev nD) (t : Fin cfg0.N) :
    (dats m 0 c).flushed 5 t = ((cfg0.win 5).blk t).view.read (Elt Ideal) (result1 m c) := by
  rw [Value.flushed5]
  unfold out0_5
  rw [View.canon_unit_zero zeroOffsets]
  simp only [View.ld_unit_zero (S := S1000x32) zeroOffsets, View.ld_unit_zero (S := S32x1000) zeroOffsets]
  obtain ⟨-, -, -, -, -, -, -, -, -, -, e0, e1⟩ := blockIndices t
  have ht := point_lt t
  funext j
  obtain ⟨p, q, rfl⟩ : ∃ (p : Fin 1000) (q : Fin 1000), j = ix2 p q := ⟨j 0, j 1, eq_ix2 j⟩
  have hp := p.isLt
  have hr : t.val * 1000 + p.val < 50000 := by omega
  show k0_pay2 (iblk m c 1 t) (View.ld (iblk m c 0 t) r0_1) (iblk m c 3 t) (ix2 p q)
    = result1 m c (((cfg0.win 5).blk t).view.emb (ix2 p q))
  have ei : ((cfg0.win 5).blk t).view.emb (ix2 p q) = ix2 (⟨t.val * 1000 + p.val, hr⟩ : Fin 50000) q :=
    funext fun a => Fin.ext (by
      match a with
      | ⟨0, _⟩ => show win0_5.index t (0 : Fin 2) * 1000 + 1 * p.val = t.val * 1000 + p.val; omega
      | ⟨1, _⟩ => show win0_5.index t (1 : Fin 2) * 1000 + 1 * q.val = q.val; omega)
  rw [ei]
  refine (pay2_apply _ _ _ p q).trans ?_
  refine Eq.trans (Finset.sum_congr rfl fun k _ => ?_) (scaledProd_ix2 _ _ _ _ _).symm
  rw [rows_apply m c t p k ⟨_, hr⟩ rfl, scaleRow0_apply m c t k, factor2_blk_apply m c t k q]

/-- An index of the second result is in point `t`'s block iff each coordinate is in the block's range on its axis. -/
theorem mem_blk5 (t : Fin cfg0.N) (i : S50000x1000.Idx) :
    i ∈ ((cfg0.win 5).blk t).view.set ↔ ∀ a : Fin 2, win0_5.index t a * S1000x1000.size a ≤ (i a).val ∧ (i a).val < win0_5.index t a * S1000x1000.size a + S1000x1000.size a := by
  show i ∈ ((View.whole main_v9_1).slice (win0_5.rect t)).set ↔ _
  rw [View.set_slice_whole, Rect.mem_set_unit]
  exact Iff.rfl

/-- Row `r` of the second result is in the block of point `r / 1000`. -/
theorem cover5 (i : S50000x1000.Idx) : ∃ t : Fin cfg0.N, (cfg0.win 5).flush t = true ∧ i ∈ ((cfg0.win 5).blk t).view.set := by
  have hi0 : (i 0).val < 50000 := (i 0).isLt
  have hi1 : (i 1).val < 1000 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, -, -, -, -, -, -, e0, e1⟩ := blockIndices t
  refine ⟨t, flush0_5 t, ?_⟩
  rw [mem_blk5]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 1000 ≤ (i 1).val ∧ (i 1).val < win0_5.index t (1 : Fin 2) * 1000 + 1000; omega

/-- The second result array after the run is the scaled product, whole. -/
theorem final5 (c : Dev nD) : (dats m 0 c).arrAt 5 cfg0.N = result1 m c :=
  (dats m 0 c).arrAt_eq_of_cover 5 (result1 m c) (fun t _ => flushed5_eq m c t) cover5

/-! ## The run, read -/

/-- Every weakly fair execution of the kernel's program ends with the two result arrays at the two scaled products
    of the argument arrays, the arguments unchanged. -/
theorem run : θ_run defs (onTc (τ := τ) (main (F := Ideal))) ⟨m, fun _ => 0, ρ⟩ fun r => ∀ c : Dev nD,
      r.2.mem ((c : Thread nD τ).loc main_v9_0) = result0 m c
      ∧ r.2.mem ((c : Thread nD τ).loc main_v9_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2⟩)
    (Value.run_blocks m ρ)

end Cert.KernelIdeal.Whole

end
-- ==== Proof.ReferenceSide.lean ====
/-
  The reference's two results are the scaled products. The reference broadcasts a column-sum vector over the
  50000 rows, multiplies the first argument by it entry by entry, transposes a factor matrix and contracts:
  at index `(r, n)` its `dot_general` is `∑ k, (X r k · s k) · U n k`, the sum of the specification, term by term
  — the broadcast read at `(r, k)` is `s k`, the transposed factor read at `(k, n)` is `U n k`.
-/
import proofs.«164277_j19713899888662_2_alg».proof.Proof.Gen.ReferenceIdeal.Read
import proofs.«164277_j19713899888662_2_alg».proof.Proof.ScaledProduct

noncomputable section

namespace Cert.ReferenceIdeal.RefValue

open Cert.ReferenceIdeal Cert.ReferenceIdeal.Gen Cert.ReferenceIdeal.Read Idealize.ShloMosaic Idealize.ShloMosaic.ValueIdx
open Cert.ScaledProduct

/-- The third argument's column sums broadcast over the rows, read at `(r, k)`: the sum of column `k`. -/
theorem rowsOfSums2 (x2 : FVec Ideal S1000x32 .f32) (j : S50000x32.Idx) :
    val_main_v3 (F := Ideal) x2 j = colSums reducesTo_S1000x32_S32_d0 h_S_ x2 (ix1 (n := 32) (j 1)) := by
  rw [val_main_v3_apply, val_main_v2_apply]
  exact congrArg (colSums reducesTo_S1000x32_S32_d0 h_S_ x2) (funext fun a => match a with | ⟨0, _⟩ => rfl)

/-- The second argument's column sums broadcast over the rows, read at `(r, k)`: the sum of column `k`. -/
theorem rowsOfSums1 (x1 : FVec Ideal S2000x32 .f32) (j : S50000x32.Idx) :
    val_main_v8 (F := Ideal) x1 j = colSums reducesTo_S2000x32_S32_d0 h_S_ x1 (ix1 (n := 32) (j 1)) := by
  rw [val_main_v8_apply, val_main_v7_apply]
  exact congrArg (colSums reducesTo_S2000x32_S32_d0 h_S_ x1) (funext fun a => match a with | ⟨0, _⟩ => rfl)

/-- The first result: the first argument scaled by the THIRD argument's column sums, times the second argument
    transposed. -/
theorem result0_eq (x0 : FVec Ideal S50000x32 .f32) (x1 : FVec Ideal S2000x32 .f32) (x2 : FVec Ideal S1000x32 .f32) :
    val_main_v6 (F := Ideal) x0 x1 x2 = scaledProd x0 (colSums reducesTo_S1000x32_S32_d0 h_S_ x2) x1 := by
  funext i
  rw [val_main_v6_apply]
  unfold scaledProd
  refine Finset.sum_congr rfl fun k _ => ?_
  rw [val_main_v4_apply, val_main_v5_apply, rowsOfSums2]
  have e1 : lidx_main_v6 i k = ix2 (i 0) k := funext fun a => by match a with | ⟨0, _⟩ => rfl | ⟨1, _⟩ => rfl
  have e2 : idx_main_v5 (ridx_main_v6 i k) = ix2 (i 1) k := funext fun a => by match a with | ⟨0, _⟩ => rfl | ⟨1, _⟩ => rfl
  rw [e1, e2]
  rfl

/-- The second result: the first argument scaled by the SECOND argument's column sums, times the third argument
    transposed. -/
theorem result1_eq (x0 : FVec Ideal S50000x32 .f32) (x1 : FVec Ideal S2000x32 .f32) (x2 : FVec Ideal S1000x32 .f32) :
    val_main_v11 (F := Ideal) x0 x1 x2 = scaledProd x0 (colSums reducesTo_S2000x32_S32_d0 h_S_ x1) x2 := by
  funext i
  rw [val_main_v11_apply]
  unfold scaledProd
  refine Finset.sum_congr rfl fun k _ => ?_
  rw [val_main_v9_apply, val_main_v10_apply, rowsOfSums1]
  have e1 : lidx_main_v11 i k = ix2 (i 0) k := funext fun a => by match a with | ⟨0, _⟩ => rfl | ⟨1, _⟩ => rfl
  have e2 : idx_main_v10 (ridx_main_v11 i k) = ix2 (i 1) k := funext fun a => by match a with | ⟨0, _⟩ => rfl | ⟨1, _⟩ => rfl
  rw [e1, e2]
  rfl

end Cert.ReferenceIdeal.RefValue

end
-- ==== Proof.lean ====
/-
  The kernel computes, for a matrix `X` of 50000 rows and 32 columns and two factor matrices `U₁` (2000 × 32) and
  `U₂` (1000 × 32),
      V₀ = (X · diag s₂) · U₁ᵀ      and      V₁ = (X · diag s₁) · U₂ᵀ,
  where `s₁`, `s₂` are the column sums of `U₁`, `U₂` — each factor's product is scaled by the OTHER factor's column
  sums. It prepares the two column-sum rows and the two transposed factors (narrowed to bf16) before one grid of 50
  points, each of which multiplies a block of 1000 rows of `X`, scaled column by column, into each transposed factor
  from a zero accumulator. The reference forms `X` times the broadcast column sums and contracts with the transposed
  factor in one `dot_general` each.

  At the extended reals a change of float format is the identity and both contractions are the plain sum over the
  32 columns, so at every index `(r, n)` both programs give `∑ k, (X r k · s k) · U n k` — the same terms in the same
  grouping (Proof/ScaledProduct.lean). No algebraic law of the extended reals is used and the precondition is never
  opened. The kernel's side: the body's stored values at an index (Proof/PayloadAtIndex.lean), the arrays @main
  prepares read at an index (Proof/RegionEntry.lean), and the fifty row blocks covering each result
  (Proof/BlocksToArrays.lean). The reference's side: Proof/ReferenceSide.lean. The column sums themselves are the same
  host reduction of the same arrays on both sides and are never opened.

  The three frames are the generated frame runs (the reference's its generated run with the results dropped); the
  idealization rewrote no operation, so there is nothing to preserve.
-/
import proofs.«164277_j19713899888662_2_alg».proof.Defs
import proofs.«164277_j19713899888662_2_alg».proof.Proof.Gen.Kernel
import proofs.«164277_j19713899888662_2_alg».proof.Proof.Gen.Kernel.Skeleton
import proofs.«164277_j19713899888662_2_alg».proof.Proof.Gen.Kernel.Launch
import proofs.«164277_j19713899888662_2_alg».proof.Proof.Gen.Kernel.Points
import proofs.«164277_j19713899888662_2_alg».proof.Proof.Gen.Kernel.Frame
import proofs.«164277_j19713899888662_2_alg».proof.Proof.Gen.KernelIdeal
import proofs.«164277_j19713899888662_2_alg».proof.Proof.Gen.KernelIdeal.Skeleton
import proofs.«164277_j19713899888662_2_alg».proof.Proof.Gen.KernelIdeal.Launch
import proofs.«164277_j19713899888662_2_alg».proof.Proof.Gen.KernelIdeal.Points
import proofs.«164277_j19713899888662_2_alg».proof.Proof.Gen.KernelIdeal.Frame
import proofs.«164277_j19713899888662_2_alg».proof.Proof.Gen.KernelIdeal.Value
import proofs.«164277_j19713899888662_2_alg».proof.Proof.Gen.ReferenceIdeal
import proofs.«164277_j19713899888662_2_alg».proof.Proof.Gen.ReferenceIdeal.Run
import proofs.«164277_j19713899888662_2_alg».proof.Proof.Gen.ReferenceIdeal.Read
import proofs.«164277_j19713899888662_2_alg».proof.Proof.Gen.Pre_finite_inputs
import proofs.«164277_j19713899888662_2_alg».proof.Proof.ScaledProduct
import proofs.«164277_j19713899888662_2_alg».proof.Proof.BlocksToArrays
import proofs.«164277_j19713899888662_2_alg».proof.Proof.ReferenceSide
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the three arguments, both programs end with each result at the scaled product
    of the arguments: the kernel's arrays by the fifty blocks, the reference's by its two contractions read at an
    index. The two column-sum vectors are one host reduction of arrays that agree. -/
theorem algebraic : Cert.algebraic_KernelIdeal_ReferenceIdeal := by
  intro m ρ m' ρ' _ hagree
  refine ⟨fun c => Cert.KernelIdeal.Whole.result0 m c, fun c => Cert.KernelIdeal.Whole.result1 m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v6_eq, Cert.ReferenceIdeal.RefValue.result0_eq,
      (hagree c).1, (hagree c).2.1, (hagree c).2.2]
  · rw [Cert.ReferenceIdeal.Read.val_main_v11_eq, Cert.ReferenceIdeal.RefValue.result1_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
